-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S4194304x6 : Shape := ⟨2, ![4194304, 6]⟩
abbrev S4194304 : Shape := ⟨1, ![4194304]⟩

class Facts : Prop where
  reducesTo_S_S_d : S_.ReducesTo [] S_
  h_S_ : 0 < S_.numel
  bcast_S_S4194304x6 : S_.BroadcastsInDim S4194304x6 (![] : Fin 0 → Fin S4194304x6.rank)
  reducesTo_S4194304x6_S_d0_1 : S4194304x6.ReducesTo [0, 1] S_
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_arg4 : FVec F S4194304 .f32) (main_arg5 : FVec F S4194304 .f32) (main_arg6 : FVec F S4194304 .f32) (main_v12 : IVec S_ 1) (main_v15 : IVec S4194304 1) (main_c_5 : IVec S_ 1) : IVec S_ 1 :=
  let main_v16 : IVec S_ 1 := (fun x v => Host.reduce IntOp.andi x v reducesTo_S4194304_S_d0 h_S_) main_v15 main_c_5
  let main_v17 : IVec S_ 1 := andi main_v12 main_v16
  let main_v18 : FVec F S4194304 .f32 := Host.absf main_arg4
  let main_cst_6 : FVec F S_ .f32 := constant S_ .f32 0x7F800000#32
  let main_v19 : FVec F S4194304 .f32 := broadcastInDim S4194304 ![] bcast_S_S4194304 main_cst_6
  let main_v20 : IVec S4194304 1 := cmpf .olt main_v18 main_v19
  let main_c_7 : IVec S_ 1 := constantI S_ 1 1#1
  let main_v21 : IVec S_ 1 := (fun x v => Host.reduce IntOp.andi x v reducesTo_S4194304_S_d0 h_S_) main_v20 main_c_7
  let main_v22 : IVec S_ 1 := andi main_v17 main_v21
  let main_v23 : FVec F S4194304 .f32 := Host.absf main_arg5
  let main_cst_8 : FVec F S_ .f32 := constant S_ .f32 0x7F800000#32
  let main_v24 : FVec F S4194304 .f32 := broadcastInDim S4194304 ![] bcast_S_S4194304 main_cst_8
  let main_v25 : IVec S4194304 1 := cmpf .olt main_v23 main_v24
  let main_c_9 : IVec S_ 1 := constantI S_ 1 1#1
  let main_v26 : IVec S_ 1 := (fun x v => Host.reduce IntOp.andi x v reducesTo_S4194304_S_d0 h_S_) main_v25 main_c_9
  let main_v27 : IVec S_ 1 := andi main_v22 main_v26
  let main_v28 : FVec F S4194304 .f32 := Host.absf main_arg6
  let main_cst_10 : FVec F S_ .f32 := constant S_ .f32 0x7F800000#32
  let main_v29 : FVec F S4194304 .f32 := broadcastInDim S4194304 ![] bcast_S_S4194304 main_cst_10
  let main_v30 : IVec S4194304 1 := cmpf .olt main_v28 main_v29
  let main_c_11 : IVec S_ 1 := constantI S_ 1 1#1
  let main_v31 : IVec S_ 1 := (fun x v => Host.reduce IntOp.andi x v reducesTo_S4194304_S_d0 h_S_) main_v30 main_c_11
  let main_v32 : IVec S_ 1 := andi main_v27 main_v31
  main_v32

def fn {F : FTy → Type} [FloatOps F] (main_arg0 : FVec F S_ .f32) (main_arg1 : FVec F S4194304x6 .f32) (main_arg2 : FVec F S4194304 .f32) (main_arg3 : FVec F S4194304 .f32) (main_arg4 : FVec F S4194304 .f32) (main_arg5 : FVec F S4194304 .f32) (main_arg6 : FVec F S4194304 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S4194304x6 .f32 := Host.absf main_arg1
  let main_cst_0 : FVec F S_ .f32 := constant S_ .f32 0x7F800000#32
  let main_v4 : FVec F S4194304x6 .f32 := broadcastInDim S4194304x6 ![] bcast_S_S4194304x6 main_cst_0
  let main_v5 : IVec S4194304x6 1 := cmpf .olt main_v3 main_v4
  let main_c_1 : IVec S_ 1 := constantI S_ 1 1#1
  let main_v6 : IVec S_ 1 := (fun x v => Host.reduce IntOp.andi x v reducesTo_S4194304x6_S_d0_1 h_S_) main_v5 main_c_1
  let main_v7 : IVec S_ 1 := andi main_v2 main_v6
  let main_v8 : FVec F S4194304 .f32 := Host.absf main_arg2
  let main_cst_2 : FVec F S_ .f32 := constant S_ .f32 0x7F800000#32
  let main_v9 : FVec F S4194304 .f32 := broadcastInDim S4194304 ![] bcast_S_S4194304 main_cst_2
  let main_v10 : IVec S4194304 1 := cmpf .olt main_v8 main_v9
  let main_c_3 : IVec S_ 1 := constantI S_ 1 1#1
  let main_v11 : IVec S_ 1 := (fun x v => Host.reduce IntOp.andi x v reducesTo_S4194304_S_d0 h_S_) main_v10 main_c_3
  let main_v12 : IVec S_ 1 := andi main_v7 main_v11
  let main_v13 : FVec F S4194304 .f32 := Host.absf main_arg3
  let main_cst_4 : FVec F S_ .f32 := constant S_ .f32 0x7F800000#32
  let main_v14 : FVec F S4194304 .f32 := broadcastInDim S4194304 ![] bcast_S_S4194304 main_cst_4
  let main_v15 : IVec S4194304 1 := cmpf .olt main_v13 main_v14
  let main_c_5 : IVec S_ 1 := constantI S_ 1 1#1
  fn_part1 (F := F) main_arg4 main_arg5 main_arg6 main_v12 main_v15 main_c_5
-- ==== Kernel.lean ====
abbrev S_ : Shape := ⟨0, ![]⟩
abbrev S4194304x6 : Shape := ⟨2, ![4194304, 6]⟩
abbrev S4194304 : Shape := ⟨1, ![4194304]⟩
abbrev S4096x6 : Shape := ⟨2, ![4096, 6]⟩
abbrev S4096 : Shape := ⟨1, ![4096]⟩
abbrev S4096x1 : Shape := ⟨2, ![4096, 1]⟩

abbrev nBuf : Space → Nat
  | .hbm => 8
  | .vmem => 14
  | .smem => 0
  | _ => 0

abbrev bufTy : (tb : Table) → Fin (tcTables nBuf tb) → BufTy
  | .hbm, ⟨0, _⟩ => ⟨S_, .f32⟩
  | .hbm, ⟨1, _⟩ => ⟨S4194304x6, .f32⟩
  | .hbm, ⟨2, _⟩ => ⟨S4194304, .f32⟩
  | .hbm, ⟨3, _⟩ => ⟨S4194304, .f32⟩
  | .hbm, ⟨4, _⟩ => ⟨S4194304, .f32⟩
  | .hbm, ⟨5, _⟩ => ⟨S4194304, .f32⟩
  | .hbm, ⟨6, _⟩ => ⟨S4194304, .f32⟩
  | .hbm, ⟨7, _⟩ => ⟨S4194304x6, .f32⟩
  | .local _ .vmem, ⟨0, _⟩ => ⟨S4096x6, .f32⟩
  | .local _ .vmem, ⟨1, _⟩ => ⟨S4096x6, .f32⟩
  | .local _ .vmem, ⟨2, _⟩ => ⟨S4096, .f32⟩
  | .local _ .vmem, ⟨3, _⟩ => ⟨S4096, .f32⟩
  | .local _ .vmem, ⟨4, _⟩ => ⟨S4096, .f32⟩
  | .local _ .vmem, ⟨5, _⟩ => ⟨S4096, .f32⟩
  | .local _ .vmem, ⟨6, _⟩ => ⟨S4096, .f32⟩
  | .local _ .vmem, ⟨7, _⟩ => ⟨S4096, .f32⟩
  | .local _ .vmem, ⟨8, _⟩ => ⟨S4096, .f32⟩
  | .local _ .vmem, ⟨9, _⟩ => ⟨S4096, .f32⟩
  | .local _ .vmem, ⟨10, _⟩ => ⟨S4096, .f32⟩
  | .local _ .vmem, ⟨11, _⟩ => ⟨S4096, .f32⟩
  | .local _ .vmem, ⟨12, _⟩ => ⟨S4096x6, .f32⟩
  | .local _ .vmem, ⟨13, _⟩ => ⟨S4096x6, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x6 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S4096x6_S4096x6_0_0 : ∀ a, (![0, 0] : Fin 2 → Nat) a + S4096x6.size a ≤ S4096x6.size a
  h_S4096x6 : 0 < S4096x6.numel
  slices_S4096x6_o0_0_S4096x1 : S4096x6.Slices ![0, 0] S4096x1
  shapeCasts_S4096x1_S4096 : S4096x1.ShapeCasts S4096
  slices_S4096x6_o0_1_S4096x1 : S4096x6.Slices ![0, 1] S4096x1
  slices_S4096x6_o0_2_S4096x1 : S4096x6.Slices ![0, 2] S4096x1
  slices_S4096x6_o0_3_S4096x1 : S4096x6.Slices ![0, 3] S4096x1
  slices_S4096x6_o0_4_S4096x1 : S4096x6.Slices ![0, 4] S4096x1
  slices_S4096x6_o0_5_S4096x1 : S4096x6.Slices ![0, 5] S4096x1
  inb_S4096_S4096_0 : ∀ a, (![0] : Fin 1 → Nat) a + S4096.size a ≤ S4096.size a
  h_S4096 : 0 < S4096.numel
  shapeCasts_S4096_S4096x1 : S4096.ShapeCasts S4096x1
  concatenates_S4096x1_S4096x1_S4096x1_S4096x1_S4096x1_S4096x1_S4096x6_d1 : Shape.Concatenates [S4096x1, S4096x1, S4096x1, S4096x1, S4096x1, S4096x1] S4096x6 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S4194304x6.size a
  hwx0_0 : ∀ i : grid0.Coords, EltTy.bits .f32 = 32 ∨ (Rect.block (s := S4194304x6) S4096x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4194304.size a
  hwx0_1 : ∀ i : grid0.Coords, EltTy.bits .f32 = 32 ∨ (Rect.block (s := S4194304) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4194304.size a
  hwx0_2 : ∀ i : grid0.Coords, EltTy.bits .f32 = 32 ∨ (Rect.block (s := S4194304) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4194304.size a
  hwx0_3 : ∀ i : grid0.Coords, EltTy.bits .f32 = 32 ∨ (Rect.block (s := S4194304) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4194304.size a
  hwx0_4 : ∀ i : grid0.Coords, EltTy.bits .f32 = 32 ∨ (Rect.block (s := S4194304) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4194304.size a
  hwx0_5 : ∀ i : grid0.Coords, EltTy.bits .f32 = 32 ∨ (Rect.block (s := S4194304) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x6.size a ≤ S4194304x6.size a
  hwx0_6 : ∀ i : grid0.Coords, EltTy.bits .f32 = 32 ∨ (Rect.block (s := S4194304x6) S4096x6.size (cc0_transform_6 i) (hinb0_6 i)).WholeWords (EltTy.packing .f32)

variable [Facts₀]

abbrev win0_0 : Pipeline.Window sig grid0 :=
  Pipeline.Window.ofSpec (Memref.whole main_arg1) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S4096x6.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S_ : Shape := ⟨0, ![]⟩
abbrev S4194304x6 : Shape := ⟨2, ![4194304, 6]⟩
abbrev S4194304 : Shape := ⟨1, ![4194304]⟩
abbrev S4194304x1 : Shape := ⟨2, ![4194304, 1]⟩

abbrev nBuf : Space → Nat
  | .hbm => 46
  | .vmem => 0
  | .smem => 0
  | _ => 0

abbrev bufTy : (tb : Table) → Fin (tcTables nBuf tb) → BufTy
  | .hbm, ⟨0, _⟩ => ⟨S_, .f32⟩
  | .hbm, ⟨1, _⟩ => ⟨S4194304x6, .f32⟩
  | .hbm, ⟨2, _⟩ => ⟨S4194304, .f32⟩
  | .hbm, ⟨3, _⟩ => ⟨S4194304, .f32⟩
  | .hbm, ⟨4, _⟩ => ⟨S4194304, .f32⟩
  | .hbm, ⟨5, _⟩ => ⟨S4194304, .f32⟩
  | .hbm, ⟨6, _⟩ => ⟨S4194304, .f32⟩
  | .hbm, ⟨7, _⟩ => ⟨S4194304x1, .f32⟩
  | .hbm, ⟨8, _⟩ => ⟨S4194304, .f32⟩
  | .hbm, ⟨9, _⟩ => ⟨S4194304x1, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S4194304x1, .f32⟩
  | .hbm, ⟨14, _⟩ => ⟨S4194304, .f32⟩
  | .hbm, ⟨15, _⟩ => ⟨S4194304x1, .f32⟩
  | .hbm, ⟨16, _⟩ => ⟨S4194304, .f32⟩
  | .hbm, ⟨17, _⟩ => ⟨S4194304x1, .f32⟩
  | .hbm, ⟨18, _⟩ => ⟨S4194304, .f32⟩
  | .hbm, ⟨19, _⟩ => ⟨S4194304, .f32⟩
  | .hbm, ⟨20, _⟩ => ⟨S4194304, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S4194304, .f32⟩
  | .hbm, ⟨32, _⟩ => ⟨S4194304, .f32⟩
  | .hbm, ⟨33, _⟩ => ⟨S4194304, .f32⟩
  | .hbm, ⟨34, _⟩ => ⟨S4194304, .f32⟩
  | .hbm, ⟨35, _⟩ => ⟨S4194304, .f32⟩
  | .hbm, ⟨36, _⟩ => ⟨S4194304, .f32⟩
  | .hbm, ⟨37, _⟩ => ⟨S4194304, .f32⟩
  | .hbm, ⟨38, _⟩ => ⟨S4194304, .f32⟩
  | .hbm, ⟨39, _⟩ => ⟨S4194304x1, .f32⟩
  | .hbm, ⟨40, _⟩ => ⟨S4194304x1, .f32⟩
  | .hbm, ⟨41, _⟩ => ⟨S4194304x1, .f32⟩
  | .hbm, ⟨42, _⟩ => ⟨S4194304x1, .f32⟩
  | .hbm, ⟨43, _⟩ => ⟨S4194304x1, .f32⟩
  | .hbm, ⟨44, _⟩ => ⟨S4194304x1, .f32⟩
  | .hbm, ⟨45, _⟩ => ⟨S4194304x6, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]

class Facts₀ : Prop where
  slices_S4194304x6_S4194304x1_0_0 : S4194304x6.Slices ![0, 0] S4194304x1
  shapeCasts_S4194304x1_S4194304 : S4194304x1.ShapeCasts S4194304
  slices_S4194304x6_S4194304x1_0_1 : S4194304x6.Slices ![0, 1] S4194304x1
  slices_S4194304x6_S4194304x1_0_2 : S4194304x6.Slices ![0, 2] S4194304x1
  slices_S4194304x6_S4194304x1_0_3 : S4194304x6.Slices ![0, 3] S4194304x1
  slices_S4194304x6_S4194304x1_0_4 : S4194304x6.Slices ![0, 4] S4194304x1
  slices_S4194304x6_S4194304x1_0_5 : S4194304x6.Slices ![0, 5] S4194304x1
  bcast_S4194304_S4194304x1_0 : S4194304.BroadcastsInDim S4194304x1 (![0] : Fin 1 → Fin S4194304x1.rank)
  concatenates_S4194304x1_S4194304x1_S4194304x1_S4194304x1_S4194304x1_S4194304x1_S4194304x6_d1 : Shape.Concatenates [S4194304x1, S4194304x1, S4194304x1, S4194304x1, S4194304x1, S4194304x1] S4194304x6 1

variable [Facts₀]

class Facts : Prop extends Facts₀ where

variable [Facts]
-- ==== Proof.Spec.lean ====
/-
  The model both programs compute: the right-hand side of a linear six-compartment pharmacokinetic system
  (a depot, three transit compartments, a central and a peripheral compartment), one patient per row.

  For a row with amounts a₀ … a₅, transit rate k, clearance cl, inter-compartment flow q and the two
  volumes vc, vp, the six derivatives are
      d₀ = -k · a₀
      d₁ = k · (a₀ - a₁),   d₂ = k · (a₁ - a₂),   d₃ = k · (a₂ - a₃)
      d₄ = k · a₃ - (cl / vc + q / vc) · a₄ + (q / vp) · a₅
      d₅ = (q / vc) · a₄ - (q / vp) · a₅
  read on the extended reals with exactly this grouping: no law of arithmetic is applied anywhere, so nothing
  here needs the inputs to be finite.
-/
import Idealize.ShloMosaic.PureOps.Ideal
import Idealize.ShloMosaic.PureOps.Ideal.Laws
import Idealize.ShloMosaic.Lib.ValueIdx

noncomputable section

namespace Cert.Pk

open Idealize.ShloMosaic Idealize.ShloMosaic.ValueIdx

/-- One row's six derivatives, as a function of the row's five parameters and its six amounts. -/
def rhs (k cl q vc vp : EReal) (a : Fin 6 → EReal) : Fin 6 → EReal := fun n => match n with
  | ⟨0, _⟩ => -k * a 0
  | ⟨1, _⟩ => k * (a 0 - a 1)
  | ⟨2, _⟩ => k * (a 1 - a 2)
  | ⟨3, _⟩ => k * (a 2 - a 3)
  | ⟨4, _⟩ => k * a 3 - (Ideal.div cl vc + Ideal.div q vc) * a 4 + Ideal.div q vp * a 5
  | ⟨5, _⟩ => Ideal.div q vc * a 4 - Ideal.div q vp * a 5

/-- The whole [4194304, 6] array of derivatives: entry (r, n) is derivative n of row r, from row r of the
    state matrix and entry r of each parameter vector. -/
def deriv (x : (⟨2, ![4194304, 6]⟩ : Shape).Idx → EReal) (k cl q vc vp : (⟨1, ![4194304]⟩ : Shape).Idx → EReal) :
    (⟨2, ![4194304, 6]⟩ : Shape).Idx → EReal := fun i =>
  rhs (k (ix1 (n := 4194304) (i 0))) (cl (ix1 (n := 4194304) (i 0))) (q (ix1 (n := 4194304) (i 0)))
    (vc (ix1 (n := 4194304) (i 0))) (vp (ix1 (n := 4194304) (i 0)))
    (fun j => x (ix2 (n0 := 4194304) (n1 := 6) (i 0) j)) (i 1)

/-- The entry at row `r`, column `n`. -/
theorem deriv_apply (x : (⟨2, ![4194304, 6]⟩ : Shape).Idx → EReal) (k cl q vc vp : (⟨1, ![4194304]⟩ : Shape).Idx → EReal)
    (r : Fin 4194304) (n : Fin 6) :
    deriv x k cl q vc vp (ix2 r n)
      = rhs (k (ix1 r)) (cl (ix1 r)) (q (ix1 r)) (vc (ix1 r)) (vp (ix1 r)) (fun j => x (ix2 r j)) n := rfl

/-- Subtracting from the float zero is negation: on the extended reals `0 - k = -k` for every `k`, the
    infinities included. -/
theorem zero_word_sub (k : EReal) : Ideal.ofBits .f32 0x00000000#32 - k = -k := by
  rw [Ideal.ofBits_zero_f32, zero_sub]

end Cert.Pk

end
-- ==== Proof.KernelBlock.lean ====
/-
  One grid point of the kernel, read entry by entry.

  The body loads a [4096, 6] block of the state matrix and five [4096] blocks of parameters, cuts the matrix
  into its six columns, computes six [4096] vectors by pointwise arithmetic, recasts each as a [4096, 1]
  column and joins the six columns along axis 1. So entry (p, n) of the block it stores is entry p of the
  n-th vector, and that is derivative n of the model for local row p: `block_entry`.
-/
import proofs.«167207_j5961414607270_2_alg».proof.Proof.Gen.KernelIdeal.Value
import proofs.«167207_j5961414607270_2_alg».proof.Proof.Spec
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- A [4096] vector recast as a [4096, 1] column keeps its entries: the column's entry in row `p` is the
    vector's entry `p` (both sit at row-major position `p`). -/
theorem column_cast_apply {α : Type} (v : S4096.Idx → α) (h : S4096.ShapeCasts S4096x1) (j : S4096x1.Idx)
    (p : Fin 4096) (hp : (j 0).val = p.val) : shapeCast S4096x1 v h j = v (ix1 p) := by
  refine shapeCast_apply v h j (ix1 p) ?_
  rw [Shape.rowMajor_val_one, Shape.rowMajor_val_two]
  have h1 : (j 1).val < 1 := (j 1).isLt
  show p.val = (j 0).val * 1 + (j 1).val
  omega

/-- Column `k` of a [4096, 6] matrix, cut out as a [4096, 1] slice at offset (0, k) and recast as a [4096]
    vector: its entry `p` is the matrix entry (p, k). -/
theorem column_read {α : Type} (X : S4096x6.Idx → α) (k : Nat) (hk : k < 6) (hs : S4096x6.Slices ![0, k] S4096x1)
    (hc : S4096x1.ShapeCasts S4096) (p : Fin 4096) :
    shapeCast S4096 (extractStridedSlice S4096x1 ![0, k] X hs) hc (ix1 p) = X (ix2 p ⟨k, hk⟩) := by
  refine (shapeCast_apply _ hc (ix1 p) (ix2 (n0 := 4096) (n1 := 1) p 0) ?_).trans ?_
  · rw [Shape.rowMajor_val_one, Shape.rowMajor_val_two]
    show p.val * 1 + 0 = p.val
    omega
  · exact extractStridedSlice_apply ![0, k] X hs (ix2 (n0 := 4096) (n1 := 1) p 0) (ix2 p ⟨k, hk⟩) (fun a => match a with
      | ⟨0, _⟩ => by show p.val = 0 + p.val; omega
      | ⟨1, _⟩ => by show k = k + 0; omega)

/-- ENTRY (p, n) OF THE STORED BLOCK is derivative `n` of the model for local row `p`: of the Ktr, CL, Q, Vc,
    Vp blocks at `p` and of row `p` of the state block. Column by column: the join picks column `n`, the
    column is a vector recast, the vector is pointwise arithmetic of the loaded vectors and of the state
    block's columns; in column 0 the body's `0 - Ktr` is `-Ktr`. -/
theorem block_entry (P0 : Vec Ideal S4096 .f32) (P1 : Vec Ideal S4096x6 .f32) (P2 P3 P4 P5 : Vec Ideal S4096 .f32)
    (p : Fin 4096) (n : Fin 6) :
    Value.E6 (F := Ideal) P0 P1 P2 P3 P4 P5 (ix2 p n)
      = Pk.rhs (P0 (ix1 p)) (P2 (ix1 p)) (P4 (ix1 p)) (P3 (ix1 p)) (P5 (ix1 p)) (fun j => P1 (ix2 p j)) n := by
  have hz : Scalar.ofBits (F := Ideal) .f32 0x00000000#32 - P0 (ix1 p) = -(P0 (ix1 p)) := Pk.zero_word_sub _
  match n with
  | ⟨0, _⟩ =>
    refine (column_cast_apply _ _ _ p rfl).trans ?_
    simp only [mulf_apply, subf_apply, broadcast_apply]
    rw [column_read P1 0 (by decide) _ _ p, hz]
    rfl
  | ⟨1, _⟩ =>
    refine (column_cast_apply _ _ _ p rfl).trans ?_
    simp only [mulf_apply, subf_apply]
    rw [column_read P1 0 (by decide) _ _ p, column_read P1 1 (by decide) _ _ p]
    rfl
  | ⟨2, _⟩ =>
    refine (column_cast_apply _ _ _ p rfl).trans ?_
    simp only [mulf_apply, subf_apply]
    rw [column_read P1 1 (by decide) _ _ p, column_read P1 2 (by decide) _ _ p]
    rfl
  | ⟨3, _⟩ =>
    refine (column_cast_apply _ _ _ p rfl).trans ?_
    simp only [mulf_apply, subf_apply]
    rw [column_read P1 2 (by decide) _ _ p, column_read P1 3 (by decide) _ _ p]
    rfl
  | ⟨4, _⟩ =>
    refine (column_cast_apply _ _ _ p rfl).trans ?_
    simp only [mulf_apply, subf_apply, addf_apply, divf_apply]
    rw [column_read P1 3 (by decide) _ _ p, column_read P1 4 (by decide) _ _ p, column_read P1 5 (by decide) _ _ p]
    rfl
  | ⟨5, _⟩ =>
    refine (column_cast_apply _ _ _ p rfl).trans ?_
    simp only [mulf_apply, subf_apply, divf_apply]
    rw [column_read P1 4 (by decide) _ _ p, column_read P1 5 (by decide) _ _ p]
    rfl

end Cert.KernelIdeal.Block

end
-- ==== Proof.KernelArray.lean ====
/-
  From one grid point to the whole output array.

  The grid has 1024 points; point `t` works on rows 4096·t … 4096·t + 4095: every input window and the
  output window sit at block index `t` on the row axis (and the two matrix windows at block 0 on the column
  axis). So local row `p` of point `t` is row 4096·t + p of every argument array, and what point `t` writes
  back is block `t` of the model's derivative array of the arguments (`point_writes`). The 1024 blocks cover
  all 4194304 rows (row `r` is in block `r / 4096`), so after the run the output array IS that derivative
  array (`output_array`, `run`).
-/
import proofs.«167207_j5961414607270_2_alg».proof.Proof.Gen.KernelIdeal.Value
import proofs.«167207_j5961414607270_2_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: on the row axis every window's block index is the point's number, and the
    two matrix windows stay at block 0 on the column axis. -/
theorem block_indices : ∀ t : Fin cfg0.N,
    win0_0.index t (0 : Fin 2) = t.val ∧ win0_0.index t (1 : Fin 2) = 0
    ∧ win0_1.index t (0 : Fin 1) = t.val
    ∧ win0_2.index t (0 : Fin 1) = t.val
    ∧ win0_3.index t (0 : Fin 1) = t.val
    ∧ win0_4.index t (0 : Fin 1) = t.val
    ∧ win0_5.index t (0 : Fin 1) = t.val
    ∧ win0_6.index t (0 : Fin 2) = t.val ∧ win0_6.index t (1 : Fin 2) = 0 :=
  (by decide +kernel : ∀ t : Fin grid0.N, _)

/-- WHAT POINT `t` WRITES BACK is block `t` of the derivative array of the argument arrays. -/
theorem point_writes (c : Dev nD) (t : Fin cfg0.N) :
    (dats m 0 c).flushed 6 t = ((cfg0.win 6).blk t).view.read (Elt Ideal)
      (Pk.deriv (V m c main_arg1) (V m c main_arg2) (V m c main_arg3) (V m c main_arg4) (V m c main_arg5) (V m c main_arg6)) := by
  rw [Value.flushed6]
  unfold out0_6
  simp only [View.ld_unit_zero (S := S4096x6) zeros2, View.ld_unit_zero (S := S4096) zeros1]
  obtain ⟨e00, e01, e1, e2, e3, e4, e5, e60, e61⟩ := block_indices t
  have ht : t.val < 1024 := lt_of_lt_of_eq t.isLt N_0
  funext j
  obtain ⟨p, n, rfl⟩ : ∃ (p : Fin 4096) (n : Fin 6), j = ix2 p n := ⟨j 0, j 1, eq_ix2 (n0 := 4096) (n1 := 6) j⟩
  have hp : p.val < 4096 := p.isLt
  -- the array row under local row `p` of point `t`
  obtain ⟨R, hR⟩ : ∃ R : Fin 4194304, R.val = t.val * 4096 + p.val := ⟨⟨t.val * 4096 + p.val, by omega⟩, rfl⟩
  refine (Value.canon6_eq (F := Ideal) (iblk m c 1 t) (iblk m c 0 t) (iblk m c 2 t) (iblk m c 4 t) (iblk m c 3 t) (iblk m c 5 t) (ix2 p n)).trans ?_
  refine (Block.block_entry (iblk m c 1 t) (iblk m c 0 t) (iblk m c 2 t) (iblk m c 4 t) (iblk m c 3 t) (iblk m c 5 t) p n).trans ?_
  -- where each block's entry sits in its array
  have hout : ((cfg0.win 6).blk t).view.emb (ix2 (n0 := 4096) (n1 := 6) p n) = ix2 (n0 := 4194304) (n1 := 6) R n := by
    funext a; apply Fin.ext
    match a with
    | ⟨0, _⟩ => show win0_6.index t (0 : Fin 2) * 4096 + 1 * p.val = R.val; omega
    | ⟨1, _⟩ => show win0_6.index t (1 : Fin 2) * 6 + 1 * n.val = n.val; omega
  have hstate : ∀ k : Fin 6, ((cfg0.win 0).blk t).view.emb (ix2 (n0 := 4096) (n1 := 6) p k) = ix2 (n0 := 4194304) (n1 := 6) R k := by
    intro k
    funext a; apply Fin.ext
    match a with
    | ⟨0, _⟩ => show win0_0.index t (0 : Fin 2) * 4096 + 1 * p.val = R.val; omega
    | ⟨1, _⟩ => show win0_0.index t (1 : Fin 2) * 6 + 1 * k.val = k.val; omega
  have h1 : ((cfg0.win 1).blk t).view.emb (ix1 (n := 4096) p) = ix1 (n := 4194304) R := by
    funext a; apply Fin.ext
    match a with
    | ⟨0, _⟩ => show win0_1.index t (0 : Fin 1) * 4096 + 1 * p.val = R.val; omega
  have h2 : ((cfg0.win 2).blk t).view.emb (ix1 (n := 4096) p) = ix1 (n := 4194304) R := by
    funext a; apply Fin.ext
    match a with
    | ⟨0, _⟩ => show win0_2.index t (0 : Fin 1) * 4096 + 1 * p.val = R.val; omega
  have h3 : ((cfg0.win 3).blk t).view.emb (ix1 (n := 4096) p) = ix1 (n := 4194304) R := by
    funext a; apply Fin.ext
    match a with
    | ⟨0, _⟩ => show win0_3.index t (0 : Fin 1) * 4096 + 1 * p.val = R.val; omega
  have h4 : ((cfg0.win 4).blk t).view.emb (ix1 (n := 4096) p) = ix1 (n := 4194304) R := by
    funext a; apply Fin.ext
    match a with
    | ⟨0, _⟩ => show win0_4.index t (0 : Fin 1) * 4096 + 1 * p.val = R.val; omega
  have h5 : ((cfg0.win 5).blk t).view.emb (ix1 (n := 4096) p) = ix1 (n := 4194304) R := by
    funext a; apply Fin.ext
    match a with
    | ⟨0, _⟩ => show win0_5.index t (0 : Fin 1) * 4096 + 1 * p.val = R.val; omega
  show Pk.rhs (V m c main_arg2 (((cfg0.win 1).blk t).view.emb (ix1 (n := 4096) p)))
      (V m c main_arg3 (((cfg0.win 2).blk t).view.emb (ix1 (n := 4096) p)))
      (V m c main_arg4 (((cfg0.win 3).blk t).view.emb (ix1 (n := 4096) p)))
      (V m c main_arg5 (((cfg0.win 4).blk t).view.emb (ix1 (n := 4096) p)))
      (V m c main_arg6 (((cfg0.win 5).blk t).view.emb (ix1 (n := 4096) p)))
      (fun k => V m c main_arg1 (((cfg0.win 0).blk t).view.emb (ix2 (n0 := 4096) (n1 := 6) p k))) n
    = Pk.deriv (V m c main_arg1) (V m c main_arg2) (V m c main_arg3) (V m c main_arg4) (V m c main_arg5) (V m c main_arg6)
        (((cfg0.win 6).blk t).view.emb (ix2 (n0 := 4096) (n1 := 6) p n))
  rw [h1, h2, h3, h4, h5, hout, Pk.deriv_apply]
  simp only [hstate]

/-- An index of the output array is in point `t`'s block iff each coordinate is in the block's range on its axis. -/
theorem mem_block (t : Fin cfg0.N) (i : S4194304x6.Idx) :
    i ∈ ((cfg0.win 6).blk t).view.set ↔ ∀ a : Fin 2, win0_6.index t a * S4096x6.size a ≤ (i a).val ∧ (i a).val < win0_6.index t a * S4096x6.size a + S4096x6.size a := by
  show i ∈ ((View.whole main_v0).slice (win0_6.rect t)).set ↔ _
  rw [View.set_slice_whole, Rect.mem_set_unit]
  exact Iff.rfl

/-- Every entry of the output array is written: row `r` lies in the block of point `r / 4096`. -/
theorem covered (i : S4194304x6.Idx) :
    ∃ t : Fin cfg0.N, (cfg0.win 6).flush t = true ∧ i ∈ ((cfg0.win 6).blk t).view.set := by
  have hi0 : (i 0).val < 4194304 := (i 0).isLt
  have hi1 : (i 1).val < 6 := (i 1).isLt
  obtain ⟨t, ht⟩ : ∃ t : Fin cfg0.N, t.val = (i 0).val / 4096 :=
    ⟨⟨(i 0).val / 4096, lt_of_lt_of_eq (by omega : (i 0).val / 4096 < 1024) N_0.symm⟩, rfl⟩
  obtain ⟨e00, e01, e1, e2, e3, e4, e5, e60, e61⟩ := block_indices t
  refine ⟨t, flush0_6 t, ?_⟩
  rw [mem_block]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 6 ≤ (i 1).val ∧ (i 1).val < win0_6.index t (1 : Fin 2) * 6 + 6; omega

/-- THE OUTPUT ARRAY after the run is the derivative array of the argument arrays. -/
theorem output_array (c : Dev nD) : (dats m 0 c).arrAt 6 cfg0.N
    = Pk.deriv (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) :=
  (dats m 0 c).arrAt_eq_of_cover 6 _ (fun t _ => point_writes m c t) covered

/-- The kernel's run: it terminates with the result array at the derivative array of the arguments, and the
    arguments unchanged. -/
theorem run : θ_run defs (onTc (τ := τ) (main (F := Ideal))) ⟨m, fun _ => 0, ρ⟩ fun r => ∀ c : Dev nD,
      r.2.mem ((c : Thread nD τ).loc main_v0)
        = Pk.deriv (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (output_array m c), (h c).2⟩) (Value.run_blocks m ρ)

end Cert.KernelIdeal.Whole

end
-- ==== Proof.RefValue.lean ====
/-
  The reference, read entry by entry.

  The reference cuts the state matrix into its six columns, computes the six derivative vectors by pointwise
  arithmetic on whole [4194304] vectors, turns each into a [4194304, 1] column and joins the six columns along
  axis 1. Entry (r, n) of the result is therefore entry (r, 0) of column `n` (`result_entry`), which is entry
  `r` of the n-th vector, which is derivative `n` of the model for row `r` (`result_eq`). The host's negation
  is `-k`, its quotient the extended reals' quotient: the same operations as the model's, in the same grouping.
-/
import proofs.«167207_j5961414607270_2_alg».proof.Proof.Gen.ReferenceIdeal.Read
import proofs.«167207_j5961414607270_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- The six [4194304, 1] columns the reference joins, as a family over the column's number. -/
abbrev columns (x1 : (⟨S4194304x6, .f32⟩ : BufTy).Contents (Elt Ideal)) (x2 x3 x4 x5 x6 : (⟨S4194304, .f32⟩ : BufTy).Contents (Elt Ideal)) :
    Fin 6 → (S4194304x1.Idx → Elt Ideal .f32) := fun n => match n with
  | ⟨0, _⟩ => val_main_v32 (F := Ideal) x1 x2
  | ⟨1, _⟩ => val_main_v33 (F := Ideal) x1 x2
  | ⟨2, _⟩ => val_main_v34 (F := Ideal) x1 x2
  | ⟨3, _⟩ => val_main_v35 (F := Ideal) x1 x2
  | ⟨4, _⟩ => val_main_v36 (F := Ideal) x1 x2 x3 x4 x5 x6
  | ⟨5, _⟩ => val_main_v37 (F := Ideal) x1 x4 x5 x6

/-- Entry (r, n) of the joined array is entry (r, 0) of column `n`: each column is one entry wide, so the
    coordinate on the joined axis is the column's number. -/
theorem result_entry (x1 : (⟨S4194304x6, .f32⟩ : BufTy).Contents (Elt Ideal)) (x2 x3 x4 x5 x6 : (⟨S4194304, .f32⟩ : BufTy).Contents (Elt Ideal))
    (r : Fin 4194304) (n : Fin 6) :
    val_main_v38 (F := Ideal) x1 x2 x3 x4 x5 x6 (ix2 r n) = columns x1 x2 x3 x4 x5 x6 n (ix2 (n0 := 4194304) (n1 := 1) r 0) := by
  unfold val_main_v38
  show concatenate S4194304x6 1 (List.ofFn fun k : Fin 6 => (⟨S4194304x1, columns x1 x2 x3 x4 x5 x6 k⟩ : (s : Shape) × (s.Idx → _))) _ (ix2 r n) = _
  exact concatenate_ofFn_unit_apply (t := S4194304x6) (s₁ := S4194304x1) (1 : Fin 2) (columns x1 x2 x3 x4 x5 x6) _ rfl rfl
    (ix2 r n) n rfl (ix2 (n0 := 4194304) (n1 := 1) r 0) (fun b hb => match b with
      | ⟨0, _⟩ => rfl
      | ⟨1, _⟩ => absurd rfl hb)

/-- Row `r` of a [4194304, 1] column comes from entry `r` of the vector it was made of. -/
theorem column_row (r : Fin 4194304) : idx_main_v32 (ix2 (n0 := 4194304) (n1 := 1) r 0) = ix1 (n := 4194304) r :=
  funext fun a => match a with | ⟨0, _⟩ => rfl

/-- Entry `r` of the k-th column vector (a one-wide slice at offset (0, k), reshaped) is the matrix entry (r, k). -/
theorem col0 (r : Fin 4194304) : idx_main_v0 (idx_main_v1 (ix1 (n := 4194304) r)) = ix2 (n0 := 4194304) (n1 := 6) r ⟨0, by decide⟩ :=
  funext fun a => Fin.ext (match a with
    | ⟨0, _⟩ => by show r.val / 1 = r.val; omega
    | ⟨1, _⟩ => by show 0 = 0; rfl)
theorem col1 (r : Fin 4194304) : idx_main_v2 (idx_main_v3 (ix1 (n := 4194304) r)) = ix2 (n0 := 4194304) (n1 := 6) r ⟨1, by decide⟩ :=
  funext fun a => Fin.ext (match a with
    | ⟨0, _⟩ => by show r.val / 1 = r.val; omega
    | ⟨1, _⟩ => by show 1 + 0 = 1; rfl)
theorem col2 (r : Fin 4194304) : idx_main_v4 (idx_main_v5 (ix1 (n := 4194304) r)) = ix2 (n0 := 4194304) (n1 := 6) r ⟨2, by decide⟩ :=
  funext fun a => Fin.ext (match a with
    | ⟨0, _⟩ => by show r.val / 1 = r.val; omega
    | ⟨1, _⟩ => by show 2 + 0 = 2; rfl)
theorem col3 (r : Fin 4194304) : idx_main_v6 (idx_main_v7 (ix1 (n := 4194304) r)) = ix2 (n0 := 4194304) (n1 := 6) r ⟨3, by decide⟩ :=
  funext fun a => Fin.ext (match a with
    | ⟨0, _⟩ => by show r.val / 1 = r.val; omega
    | ⟨1, _⟩ => by show 3 + 0 = 3; rfl)
theorem col4 (r : Fin 4194304) : idx_main_v8 (idx_main_v9 (ix1 (n := 4194304) r)) = ix2 (n0 := 4194304) (n1 := 6) r ⟨4, by decide⟩ :=
  funext fun a => Fin.ext (match a with
    | ⟨0, _⟩ => by show r.val / 1 = r.val; omega
    | ⟨1, _⟩ => by show 4 + 0 = 4; rfl)
theorem col5 (r : Fin 4194304) : idx_main_v10 (idx_main_v11 (ix1 (n := 4194304) r)) = ix2 (n0 := 4194304) (n1 := 6) r ⟨5, by decide⟩ :=
  funext fun a => Fin.ext (match a with
    | ⟨0, _⟩ => by show r.val / 1 = r.val; omega
    | ⟨1, _⟩ => by show 5 + 0 = 5; rfl)

/-- THE REFERENCE'S RESULT is the derivative array of its arguments. -/
theorem result_eq (x1 : (⟨S4194304x6, .f32⟩ : BufTy).Contents (Elt Ideal)) (x2 x3 x4 x5 x6 : (⟨S4194304, .f32⟩ : BufTy).Contents (Elt Ideal)) :
    val_main_v38 (F := Ideal) x1 x2 x3 x4 x5 x6 = Pk.deriv x1 x2 x3 x4 x5 x6 := by
  funext i
  obtain ⟨r, n, rfl⟩ : ∃ (r : Fin 4194304) (n : Fin 6), i = ix2 r n := ⟨i 0, i 1, eq_ix2 (n0 := 4194304) (n1 := 6) i⟩
  rw [result_entry, Pk.deriv_apply]
  match n with
  | ⟨0, _⟩ =>
    show val_main_v32 (F := Ideal) x1 x2 (ix2 (n0 := 4194304) (n1 := 1) r 0) = _
    rw [val_main_v32_apply, column_row, val_main_v16_apply, val_main_v15_apply, val_main_v1_apply, val_main_v0_apply, col0]
    rfl
  | ⟨1, _⟩ =>
    show val_main_v33 (F := Ideal) x1 x2 (ix2 (n0 := 4194304) (n1 := 1) r 0) = _
    rw [val_main_v33_apply, show idx_main_v33 (ix2 (n0 := 4194304) (n1 := 1) r 0) = ix1 (n := 4194304) r from column_row r, val_main_v18_apply, val_main_v17_apply, val_main_v1_apply, val_main_v0_apply, col0,
      val_main_v3_apply, val_main_v2_apply, col1]
    rfl
  | ⟨2, _⟩ =>
    show val_main_v34 (F := Ideal) x1 x2 (ix2 (n0 := 4194304) (n1 := 1) r 0) = _
    rw [val_main_v34_apply, show idx_main_v34 (ix2 (n0 := 4194304) (n1 := 1) r 0) = ix1 (n := 4194304) r from column_row r, val_main_v20_apply, val_main_v19_apply, val_main_v3_apply, val_main_v2_apply, col1,
      val_main_v5_apply, val_main_v4_apply, col2]
    rfl
  | ⟨3, _⟩ =>
    show val_main_v35 (F := Ideal) x1 x2 (ix2 (n0 := 4194304) (n1 := 1) r 0) = _
    rw [val_main_v35_apply, show idx_main_v35 (ix2 (n0 := 4194304) (n1 := 1) r 0) = ix1 (n := 4194304) r from column_row r, val_main_v22_apply, val_main_v21_apply, val_main_v5_apply, val_main_v4_apply, col2,
      val_main_v7_apply, val_main_v6_apply, col3]
    rfl
  | ⟨4, _⟩ =>
    show val_main_v36 (F := Ideal) x1 x2 x3 x4 x5 x6 (ix2 (n0 := 4194304) (n1 := 1) r 0) = _
    rw [val_main_v36_apply, show idx_main_v36 (ix2 (n0 := 4194304) (n1 := 1) r 0) = ix1 (n := 4194304) r from column_row r, val_main_v28_apply, val_main_v26_apply, val_main_v23_apply, val_main_v7_apply, val_main_v6_apply, col3,
      val_main_v25_apply, val_main_v24_apply, val_main_v12_apply, val_main_v13_apply, val_main_v9_apply, val_main_v8_apply, col4,
      val_main_v27_apply, val_main_v14_apply, val_main_v11_apply, val_main_v10_apply, col5]
    rfl
  | ⟨5, _⟩ =>
    show val_main_v37 (F := Ideal) x1 x4 x5 x6 (ix2 (n0 := 4194304) (n1 := 1) r 0) = _
    rw [val_main_v37_apply, show idx_main_v37 (ix2 (n0 := 4194304) (n1 := 1) r 0) = ix1 (n := 4194304) r from column_row r, val_main_v31_apply, val_main_v29_apply, val_main_v13_apply, val_main_v9_apply, val_main_v8_apply, col4,
      val_main_v30_apply, val_main_v14_apply, val_main_v11_apply, val_main_v10_apply, col5]
    rfl

end Cert.ReferenceIdeal.RefValue

end
-- ==== Proof.lean ====
/-
  The certificate of a pharmacokinetic right-hand side: for 4194304 patients (rows), the derivatives of a
  linear six-compartment model — depot, three transit compartments, central, peripheral — from each row's six
  amounts and five parameters (Proof/Spec.lean states the six formulas).

  The kernel walks the rows in 1024 blocks of 4096: at each grid point it loads the blocks, cuts the state
  block into columns, computes six vectors by pointwise arithmetic and stores them joined as a [4096, 6]
  block. The reference does the same arithmetic on whole [4194304] vectors and joins six [4194304, 1]
  columns. On the extended reals the two are the SAME operations in the SAME grouping, entry by entry — the
  kernel's quotient and the host's are one function, a change of tiling changes nothing, and the kernel's
  `0 - Ktr` is the host's `-Ktr` (`0 - k = -k` for every extended real) — so no law that could fail at an
  infinity is used and the precondition is never opened:
    * Proof/KernelBlock.lean: entry (p, n) of the block a grid point stores is derivative n of local row p;
    * Proof/KernelArray.lean: the 1024 blocks tile the output, so the kernel's result IS the derivative array;
    * Proof/RefValue.lean: the reference's result, read through its join, IS the derivative array.
  The three frames are the generated frame runs (the reference's: its generated run with the result dropped);
  the idealized kernel is the kernel's own text read on the extended reals, with no operation rewritten,
  so `preserves` is `True`.
-/
import proofs.«167207_j5961414607270_2_alg».proof.Defs
import proofs.«167207_j5961414607270_2_alg».proof.Proof.Gen.Kernel
import proofs.«167207_j5961414607270_2_alg».proof.Proof.Gen.Kernel.Skeleton
import proofs.«167207_j5961414607270_2_alg».proof.Proof.Gen.Kernel.Launch
import proofs.«167207_j5961414607270_2_alg».proof.Proof.Gen.Kernel.Points
import proofs.«167207_j5961414607270_2_alg».proof.Proof.Gen.Kernel.Frame
import proofs.«167207_j5961414607270_2_alg».proof.Proof.Gen.KernelIdeal
import proofs.«167207_j5961414607270_2_alg».proof.Proof.Gen.KernelIdeal.Skeleton
import proofs.«167207_j5961414607270_2_alg».proof.Proof.Gen.KernelIdeal.Launch
import proofs.«167207_j5961414607270_2_alg».proof.Proof.Gen.KernelIdeal.Points
import proofs.«167207_j5961414607270_2_alg».proof.Proof.Gen.KernelIdeal.Frame
import proofs.«167207_j5961414607270_2_alg».proof.Proof.Gen.ReferenceIdeal
import proofs.«167207_j5961414607270_2_alg».proof.Proof.Gen.Pre_finite_inputs
import proofs.«167207_j5961414607270_2_alg».proof.Proof.Gen.KernelIdeal.Value
import proofs.«167207_j5961414607270_2_alg».proof.Proof.Gen.ReferenceIdeal.Run
import proofs.«167207_j5961414607270_2_alg».proof.Proof.Gen.ReferenceIdeal.Read
import proofs.«167207_j5961414607270_2_alg».proof.Proof.KernelArray
import proofs.«167207_j5961414607270_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: its generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its generated run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- Both idealized programs end with the derivative array of their arguments; the arguments agree, so the
    results are equal entry by entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq (F := Ideal) _ _ _ _ _ _).trans ?_
  rw [Cert.ReferenceIdeal.RefValue.result_eq,
    (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
